-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x64 .f32) (main_arg6 : FVec F S64 .f32) (main_arg7 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S5000x64 : Shape := ⟨2, ![5000, 64]⟩
abbrev S5000 : Shape := ⟨1, ![5000]⟩
abbrev S5000x1 : Shape := ⟨2, ![5000, 1]⟩

abbrev nBuf : Space → Nat
  | .hbm => 60
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x64, .f32⟩
  | .hbm, ⟨33, _⟩ => ⟨S_, .f32⟩
  | .hbm, ⟨34, _⟩ => ⟨S100000x64, .f32⟩
  | .hbm, ⟨35, _⟩ => ⟨S1600000x1, .i32⟩
  | .hbm, ⟨36, _⟩ => ⟨S100000x64, .f32⟩
  | .hbm, ⟨37, _⟩ => ⟨S100000x1, .f32⟩
  | .hbm, ⟨38, _⟩ => ⟨S100000x64, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .f32⟩
  | .hbm, ⟨51, _⟩ => ⟨S_, .f32⟩
  | .hbm, ⟨52, _⟩ => ⟨S100000x64, .f32⟩
  | .hbm, ⟨53, _⟩ => ⟨S1600000x1, .i32⟩
  | .hbm, ⟨54, _⟩ => ⟨S100000x64, .f32⟩
  | .hbm, ⟨55, _⟩ => ⟨S100000x1, .f32⟩
  | .hbm, ⟨56, _⟩ => ⟨S100000x64, .f32⟩
  | .hbm, ⟨57, _⟩ => ⟨S100000x64, .f32⟩
  | .hbm, ⟨58, _⟩ => ⟨S1x64, .f32⟩
  | .hbm, ⟨59, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S5000x64, .f32⟩
  | .local _ .vmem, ⟨17, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v24) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 91
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S64x64, .f32⟩
  | .hbm, ⟨38, _⟩ => ⟨S100000x64, .f32⟩
  | .hbm, ⟨39, _⟩ => ⟨S1x64, .f32⟩
  | .hbm, ⟨40, _⟩ => ⟨S100000x64, .f32⟩
  | .hbm, ⟨41, _⟩ => ⟨S100000x64, .f32⟩
  | .hbm, ⟨42, _⟩ => ⟨S64x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000x64, .f32⟩
  | .hbm, ⟨47, _⟩ => ⟨S100000x64, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x64, .f32⟩
  | .hbm, ⟨57, _⟩ => ⟨S_, .f32⟩
  | .hbm, ⟨58, _⟩ => ⟨S100000x64, .f32⟩
  | .hbm, ⟨59, _⟩ => ⟨S1600000x1, .i32⟩
  | .hbm, ⟨60, _⟩ => ⟨S100000x64, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x64, .f32⟩
  | .hbm, ⟨72, _⟩ => ⟨S100000x64, .f32⟩
  | .hbm, ⟨73, _⟩ => ⟨S64x64, .f32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | .hbm, ⟨78, _⟩ => ⟨S64x64, .f32⟩
  | .hbm, ⟨79, _⟩ => ⟨S100000x64, .f32⟩
  | .hbm, ⟨80, _⟩ => ⟨S100000x64, .f32⟩
  | .hbm, ⟨81, _⟩ => ⟨S100000x64, .f32⟩
  | .hbm, ⟨82, _⟩ => ⟨S_, .f32⟩
  | .hbm, ⟨83, _⟩ => ⟨S100000, .f32⟩
  | .hbm, ⟨84, _⟩ => ⟨S100000x1, .f32⟩
  | .hbm, ⟨85, _⟩ => ⟨S100000x1, .f32⟩
  | .hbm, ⟨86, _⟩ => ⟨S_, .f32⟩
  | .hbm, ⟨87, _⟩ => ⟨S100000x1, .f32⟩
  | .hbm, ⟨88, _⟩ => ⟨S100000x1, .f32⟩
  | .hbm, ⟨89, _⟩ => ⟨S100000x64, .f32⟩
  | .hbm, ⟨90, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_call1_v0 : Ref sig .tc := ⟨.hbm, 81, rfl⟩
abbrev main_call1_cst : Ref sig .tc := ⟨.hbm, 82, rfl⟩
abbrev main_call1_v1 : Ref sig .tc := ⟨.hbm, 83, rfl⟩
abbrev main_call1_v2 : Ref sig .tc := ⟨.hbm, 84, rfl⟩
abbrev main_v59 : Ref sig .tc := ⟨.hbm, 85, rfl⟩
abbrev main_cst_10 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S_S100000x1 : S_.BroadcastsInDim S100000x1 (![] : Fin 0 → Fin S100000x1.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The idealized kernel's run with its result named.

  The program is four segments: host operations, the first layer's region, host operations, the second layer's
  region. The generated frame proof follows the contents of every unscoped buffer through the four segments and ends
  with all of them at the last boundary's contents; it then reads only the argument arrays off that state. Read here,
  off the same final state, is the result array as well: the second region's output array is, at the last boundary,
  what the region's write-backs leave of it.
-/
import proofs.«165295_j42030549959219_1_alg».proof.Proof.Gen.KernelIdeal.Frame

set_option maxRecDepth 16384

noncomputable section

namespace Sage.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, the result array at the last boundary's
    contents and the argument arrays as launched. -/
theorem run_named : θ_run defs (onTc (τ := τ) (main (F := F))) ⟨m, fun _ => 0, ρ⟩ (fun r => ∀ c : Dev nD,
      r.2.mem ((c.tc : Thread nD τ).loc main_v41) = W4 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v41 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

/-- The result array at the last boundary is what the second region's write-backs leave of its output array. -/
theorem result_arr (c : Dev nD) :
    W4 m ρ c (Proc.devRef .tc main_v41) = (dat1 (V3 m ρ) c).arrAt 5 cfg1.N :=
  W4_arr m ρ c 5

end Sage.Run

end
-- ==== Proof.Spec.lean ====
/-
  The row functions of a two-layer graph convolution over the extended reals, and the two laws that join its two
  arrangements.

  A layer maps a row `u` of aggregated neighbour features and a row `v` of root features, both of 64 entries, to
  `z q = (∑ k, u k * wl q k) + (∑ k, v k * wr q k) + b q`: two products with transposed 64 × 64 weights and a bias.
  The first layer ends with `max (z q) 0`; the second divides the row by `max (√(∑ q', z q' * z q')) eps`, its
  Euclidean length kept away from zero. The aggregated row is a sum over neighbours divided by a count `c` that is
  at least one.

  The two arrangements differ in the order of the three summands of `z q` (commutativity and associativity of the
  sum, which hold on all of the extended reals), and in whether the mean is the quotient `a / c` or the product
  `a * (1 / c)`: off zero the quotient IS the product with the inverse, and `1 / c` is that inverse, so the two agree
  for every extended real `a` as soon as `c ≠ 0` — which `c = max n 1` always is.
-/
import Idealize.ShloMosaic.PureOps.Ideal
import Idealize.ShloMosaic.PureOps.Ideal.Laws

open scoped BigOperators

noncomputable section

namespace Sage

open Idealize.ShloMosaic

/-- One output entry of a layer before its last step: the two weighted sums of the rows and the bias. -/
def denseRow (u v : Fin 64 → EReal) (wl wr : Fin 64 → Fin 64 → EReal) (b : Fin 64 → EReal) (q : Fin 64) : EReal :=
  (∑ k : Fin 64, u k * wl q k) + (∑ k : Fin 64, v k * wr q k) + b q

/-- The same entry with the bias added before the root's product: the sum of three terms in another order. -/
theorem denseRow_bias_first (u v : Fin 64 → EReal) (wl wr : Fin 64 → Fin 64 → EReal) (b : Fin 64 → EReal) (q : Fin 64) :
    (∑ k : Fin 64, u k * wl q k) + b q + (∑ k : Fin 64, v k * wr q k) = denseRow u v wl wr b q :=
  add_right_comm _ _ _

/-- The first layer's last step: the positive part. -/
def reluRow (z : Fin 64 → EReal) (q : Fin 64) : EReal := max (z q) 0

/-- The floor under a row's length: the number the word `0x2B8CBCCC` denotes. -/
def eps : EReal := Ideal.ofBits .f32 0x2B8CBCCC#32

/-- The second layer's last step: the row divided by its Euclidean length, the length floored at `eps`. -/
def normRow (z : Fin 64 → EReal) (q : Fin 64) : EReal :=
  Ideal.div (z q) (max (Ideal.sqrt (∑ q' : Fin 64, z q' * z q')) eps)

/-- Off zero, multiplying by the quotient `1 / c` is dividing by `c`: the quotient is the product with the inverse
    and `1 / c` is the inverse itself. No finiteness is asked of `a` or of `c`. -/
theorem mul_one_div (a c : EReal) (hc : c ≠ 0) : a * Ideal.div 1 c = Ideal.div a c := by
  unfold Ideal.div
  rw [if_neg hc, if_neg hc, one_mul]

/-- The word `0x3F800000` denotes the number one. -/
theorem one_f32 : Ideal.ofBits .f32 0x3F800000#32 = 1 := by
  simp [Ideal.ofBits, Ideal.ieee]
  rw [← EReal.coe_mul]
  norm_num

/-- A count floored at one is not zero. -/
theorem max_one_ne_zero (n : EReal) : max n (Ideal.ofBits .f32 0x3F800000#32) ≠ 0 := by
  rw [one_f32]
  exact (lt_of_lt_of_le zero_lt_one (le_max_right n 1)).ne'

end Sage

end
-- ==== Proof.RegionArr.lean ====
/-
  From blocks to arrays, for the two regions.

  Each region runs its body at 20 grid points. At point `t` the two row inputs and the output are blocks of 5000
  rows — rows `5000 t` to `5000 t + 4999` of their arrays — and the two weights and the bias are whole. An entry
  `(p, q)` of the output block depends on row `p` of the two input blocks only, so it is the layer's row function of
  rows `5000 t + p` of the two arrays: the output block is block `t` of ONE function of the whole arrays. The 20 blocks
  tile the output array (the point covering row `r` is `r / 5000`), so after the region the array IS that function.
-/
import proofs.«165295_j42030549959219_1_alg».proof.Proof.Gen.KernelIdeal.Frame
import proofs.«165295_j42030549959219_1_alg».proof.Proof.Spec
import Idealize.ShloMosaic.Lib.ValueIdx
import Idealize.ShloMosaic.Lib.Pipeline.Value

set_option maxRecDepth 16384

noncomputable section

namespace Sage.Arr

open Cert.KernelIdeal Cert.KernelIdeal.Gen
open Idealize.ShloMosaic Idealize.ShloMosaic.TcCoe Idealize.ShloMosaic.ValueIdx Idealize.SL.Sem
open Idealize.ShloMosaic.Pipeline (Dat)

/-- The array row that row `p` of the block at grid point `t` is. -/
def rowOf (t : Fin 20) (p : Fin 5000) : Fin 100000 := ⟨t.val * 5000 + p.val, by omega⟩

/-- A layer as a function of whole arrays, index by index: entry `(i, q)` is the layer's last step `last` applied to the
    dense row of row `i` of the aggregated array `a` and of the root array `r`, the weights `wl`, `wr` and the bias row
    `b`. -/
def layerArr (last : (Fin 64 → EReal) → Fin 64 → EReal) (a r : S100000x64.Idx → EReal) (wl : S64x64.Idx → EReal)
    (b : S1x64.Idx → EReal) (wr : S64x64.Idx → EReal) : S100000x64.Idx → EReal :=
  fun i => last (Sage.denseRow (fun k => a (ix2 (i 0) k)) (fun k => r (ix2 (i 0) k)) (fun q k => wl (ix2 q k))
    (fun q k => wr (ix2 q k)) (fun q => b (ix2 (0 : Fin 1) q))) (i 1)

theorem layerArr_apply (last : (Fin 64 → EReal) → Fin 64 → EReal) (a r : S100000x64.Idx → EReal) (wl : S64x64.Idx → EReal)
    (b : S1x64.Idx → EReal) (wr : S64x64.Idx → EReal) (i : Fin 100000) (q : Fin 64) :
    layerArr last a r wl b wr (ix2 i q)
      = last (Sage.denseRow (fun k => a (ix2 i k)) (fun k => r (ix2 i k)) (fun q k => wl (ix2 q k))
          (fun q k => wr (ix2 q k)) (fun q => b (ix2 (0 : Fin 1) q))) q := rfl

/-! ## Region 0: the first layer -/

section Region0

variable (V : (c : Dev nD) → (b : Ref sig .tc) → Buf (Elt Ideal) ((c : Thread nD τ).loc b))

/-- The printed index maps over the grid: the three row windows sit at block `(t, 0)`, the weights and the bias
    at block `(0, 0)`. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the aggregated block at point `t` is row `5000 t + p` of the aggregated array. -/
theorem blk0_0 (c : Dev nD) (t : Fin cfg0.N) (p : Fin 5000) (k : Fin 64) :
    iblk0 V c 0 t (ix2 p k) = V c main_v24 (ix2 (rowOf t p) k) := by
  show V c main_v24 (((cfg0.win 0).blk t).view.emb (ix2 p k)) = V c main_v24 (ix2 (rowOf t p) k)
  refine congrArg (V c main_v24) (funext fun a => Fin.ext ?_)
  obtain ⟨e0, e1, -⟩ := idx_facts0 t
  match a with
  | ⟨0, _⟩ => show win0_0.index t (0 : Fin 2) * 5000 + 1 * p.val = t.val * 5000 + p.val; omega
  | ⟨1, _⟩ => show win0_0.index t (1 : Fin 2) * 64 + 1 * k.val = k.val; omega

/-- Row `p` of the root block at point `t` is row `5000 t + p` of the root array. -/
theorem blk0_1 (c : Dev nD) (t : Fin cfg0.N) (p : Fin 5000) (k : Fin 64) :
    iblk0 V c 1 t (ix2 p k) = V c main_arg0 (ix2 (rowOf t p) k) := by
  show V c main_arg0 (((cfg0.win 1).blk t).view.emb (ix2 p k)) = V c main_arg0 (ix2 (rowOf t p) k)
  refine congrArg (V c main_arg0) (funext fun a => Fin.ext ?_)
  obtain ⟨-, -, e0, e1, -⟩ := idx_facts0 t
  match a with
  | ⟨0, _⟩ => show win0_1.index t (0 : Fin 2) * 5000 + 1 * p.val = t.val * 5000 + p.val; omega
  | ⟨1, _⟩ => show win0_1.index t (1 : Fin 2) * 64 + 1 * k.val = k.val; omega

/-- The first weight's block is the whole weight at every point. -/
theorem blk0_2 (c : Dev nD) (t : Fin cfg0.N) (q k : Fin 64) :
    iblk0 V c 2 t (ix2 q k) = V c main_arg2 (ix2 q k) := by
  show V c main_arg2 (((cfg0.win 2).blk t).view.emb (ix2 q k)) = V c main_arg2 (ix2 q k)
  refine congrArg (V c main_arg2) (funext fun a => Fin.ext ?_)
  obtain ⟨-, -, -, -, e0, e1, -⟩ := idx_facts0 t
  match a with
  | ⟨0, _⟩ => show win0_2.index t (0 : Fin 2) * 64 + 1 * q.val = q.val; omega
  | ⟨1, _⟩ => show win0_2.index t (1 : Fin 2) * 64 + 1 * k.val = k.val; omega

/-- The bias's block is the whole bias row at every point. -/
theorem blk0_3 (c : Dev nD) (t : Fin cfg0.N) (z : Fin 1) (q : Fin 64) :
    iblk0 V c 3 t (ix2 z q) = V c main_v25 (ix2 z q) := by
  show V c main_v25 (((cfg0.win 3).blk t).view.emb (ix2 z q)) = V c main_v25 (ix2 z q)
  refine congrArg (V c main_v25) (funext fun a => Fin.ext ?_)
  obtain ⟨-, -, -, -, -, -, e0, e1, -⟩ := idx_facts0 t
  match a with
  | ⟨0, _⟩ => show win0_3.index t (0 : Fin 2) * 1 + 1 * z.val = z.val; omega
  | ⟨1, _⟩ => show win0_3.index t (1 : Fin 2) * 64 + 1 * q.val = q.val; omega

/-- The second weight's block is the whole weight at every point. -/
theorem blk0_4 (c : Dev nD) (t : Fin cfg0.N) (q k : Fin 64) :
    iblk0 V c 4 t (ix2 q k) = V c main_arg4 (ix2 q k) := by
  show V c main_arg4 (((cfg0.win 4).blk t).view.emb (ix2 q k)) = V c main_arg4 (ix2 q k)
  refine congrArg (V c main_arg4) (funext fun a => Fin.ext ?_)
  obtain ⟨-, -, -, -, -, -, -, -, e0, e1, -⟩ := idx_facts0 t
  match a with
  | ⟨0, _⟩ => show win0_4.index t (0 : Fin 2) * 64 + 1 * q.val = q.val; omega
  | ⟨1, _⟩ => show win0_4.index t (1 : Fin 2) * 64 + 1 * k.val = k.val; omega

/-- Entry `(p, q)` of the output block at point `t` sits at `(5000 t + p, q)` of the output array. -/
theorem emb0_5 (t : Fin cfg0.N) (p : Fin 5000) (q : Fin 64) :
    ((cfg0.win 5).blk t).view.emb (ix2 p q) = ix2 (rowOf t p) q := by
  refine funext fun a => Fin.ext ?_
  obtain ⟨-, -, -, -, -, -, -, -, -, -, e0, e1⟩ := idx_facts0 t
  match a with
  | ⟨0, _⟩ => show win0_5.index t (0 : Fin 2) * 5000 + 1 * p.val = t.val * 5000 + p.val; omega
  | ⟨1, _⟩ => show win0_5.index t (1 : Fin 2) * 64 + 1 * q.val = q.val; omega

/-- WHAT POINT `t` WRITES BACK is block `t` of the layer's array function of the arrays the region finds: an entry
    of the block depends on its own row of the two row inputs only, and that row is the array's row `5000 t + p`. -/
theorem flushed0_eq (last : (Fin 64 → EReal) → Fin 64 → EReal)
    (hpay : ∀ (x0 x1 : Vec Ideal S5000x64 .f32) (x2 : Vec Ideal S64x64 .f32) (x3 : Vec Ideal S1x64 .f32) (x4 : Vec Ideal S64x64 .f32)
      (p : Fin 5000) (q : Fin 64), out0_5 (F := Ideal) x0 x1 x2 x3 x4 (ix2 p q)
        = last (Sage.denseRow (fun k => x0 (ix2 p k)) (fun k => x1 (ix2 p k)) (fun q k => x2 (ix2 q k)) (fun q k => x4 (ix2 q k))
            (fun q => x3 (ix2 (0 : Fin 1) q))) q)
    (c : Dev nD) (t : Fin cfg0.N) :
    (dat0 V c).flushed 5 t = ((cfg0.win 5).blk t).view.read (Elt Ideal)
      (layerArr last (V c main_v24) (V c main_arg0) (V c main_arg2) (V c main_v25) (V c main_arg4)) := by
  show (cfg0.win 5).cut (grid0.coords t) ((dat0 V c).after 5 t) = _
  rw [after0_5]
  funext j
  obtain ⟨p, q, rfl⟩ : ∃ (p : Fin 5000) (q : Fin 64), j = ix2 p q := ⟨j 0, j 1, eq_ix2 j⟩
  show out0_5 (F := Ideal) (iblk0 V c 0 t) (iblk0 V c 1 t) (iblk0 V c 2 t) (iblk0 V c 3 t) (iblk0 V c 4 t) (ix2 p q)
    = layerArr last (V c main_v24) (V c main_arg0) (V c main_arg2) (V c main_v25) (V c main_arg4)
        (((cfg0.win 5).blk t).view.emb (ix2 p q))
  rw [hpay, emb0_5 t p q, layerArr_apply]
  simp only [blk0_0 V c t, blk0_1 V c t, blk0_2 V c t, blk0_3 V c t, blk0_4 V c t]

/-- An index of the output array is in point `t`'s block iff each coordinate is in the block's range on its axis. -/
theorem mem_blk0 (t : Fin cfg0.N) (i : S100000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v26).slice (win0_5.rect t)).set ↔ _
  rw [View.set_slice_whole, Rect.mem_set_unit]
  exact Iff.rfl

/-- Every index of the output array is in the block of the point its row falls in: `t = row / 5000`. -/
theorem cover0 (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  let t : Fin cfg0.N := ⟨(i 0).val / 5000, by show (i 0).val / 5000 < 20; omega⟩
  have ht : t.val = (i 0).val / 5000 := rfl
  obtain ⟨-, -, -, -, -, -, -, -, -, -, e0, e1⟩ := idx_facts0 t
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-- THE OUTPUT ARRAY after the region is the layer's array function of the arrays the region finds. -/
theorem final0 (last : (Fin 64 → EReal) → Fin 64 → EReal)
    (hpay : ∀ (x0 x1 : Vec Ideal S5000x64 .f32) (x2 : Vec Ideal S64x64 .f32) (x3 : Vec Ideal S1x64 .f32) (x4 : Vec Ideal S64x64 .f32)
      (p : Fin 5000) (q : Fin 64), out0_5 (F := Ideal) x0 x1 x2 x3 x4 (ix2 p q)
        = last (Sage.denseRow (fun k => x0 (ix2 p k)) (fun k => x1 (ix2 p k)) (fun q k => x2 (ix2 q k)) (fun q k => x4 (ix2 q k))
            (fun q => x3 (ix2 (0 : Fin 1) q))) q)
    (c : Dev nD) :
    (dat0 V c).arrAt 5 cfg0.N
      = layerArr last (V c main_v24) (V c main_arg0) (V c main_arg2) (V c main_v25) (V c main_arg4) :=
  (dat0 V c).arrAt_eq_of_cover 5 _ (fun t _ => flushed0_eq V last hpay c t) (cover0)

end Region0

/-! ## Region 1: the second layer -/

section Region1

variable (V : (c : Dev nD) → (b : Ref sig .tc) → Buf (Elt Ideal) ((c : Thread nD τ).loc b))

/-- The printed index maps over the grid: the three row windows sit at block `(t, 0)`, the weights and the bias
    at block `(0, 0)`. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of the aggregated block at point `t` is row `5000 t + p` of the aggregated array. -/
theorem blk1_0 (c : Dev nD) (t : Fin cfg1.N) (p : Fin 5000) (k : Fin 64) :
    iblk1 V c 0 t (ix2 p k) = V c main_v39 (ix2 (rowOf t p) k) := by
  show V c main_v39 (((cfg1.win 0).blk t).view.emb (ix2 p k)) = V c main_v39 (ix2 (rowOf t p) k)
  refine congrArg (V c main_v39) (funext fun a => Fin.ext ?_)
  obtain ⟨e0, e1, -⟩ := idx_facts1 t
  match a with
  | ⟨0, _⟩ => show win1_0.index t (0 : Fin 2) * 5000 + 1 * p.val = t.val * 5000 + p.val; omega
  | ⟨1, _⟩ => show win1_0.index t (1 : Fin 2) * 64 + 1 * k.val = k.val; omega

/-- Row `p` of the root block at point `t` is row `5000 t + p` of the root array. -/
theorem blk1_1 (c : Dev nD) (t : Fin cfg1.N) (p : Fin 5000) (k : Fin 64) :
    iblk1 V c 1 t (ix2 p k) = V c main_v26 (ix2 (rowOf t p) k) := by
  show V c main_v26 (((cfg1.win 1).blk t).view.emb (ix2 p k)) = V c main_v26 (ix2 (rowOf t p) k)
  refine congrArg (V c main_v26) (funext fun a => Fin.ext ?_)
  obtain ⟨-, -, e0, e1, -⟩ := idx_facts1 t
  match a with
  | ⟨0, _⟩ => show win1_1.index t (0 : Fin 2) * 5000 + 1 * p.val = t.val * 5000 + p.val; omega
  | ⟨1, _⟩ => show win1_1.index t (1 : Fin 2) * 64 + 1 * k.val = k.val; omega

/-- The first weight's block is the whole weight at every point. -/
theorem blk1_2 (c : Dev nD) (t : Fin cfg1.N) (q k : Fin 64) :
    iblk1 V c 2 t (ix2 q k) = V c main_arg5 (ix2 q k) := by
  show V c main_arg5 (((cfg1.win 2).blk t).view.emb (ix2 q k)) = V c main_arg5 (ix2 q k)
  refine congrArg (V c main_arg5) (funext fun a => Fin.ext ?_)
  obtain ⟨-, -, -, -, e0, e1, -⟩ := idx_facts1 t
  match a with
  | ⟨0, _⟩ => show win1_2.index t (0 : Fin 2) * 64 + 1 * q.val = q.val; omega
  | ⟨1, _⟩ => show win1_2.index t (1 : Fin 2) * 64 + 1 * k.val = k.val; omega

/-- The bias's block is the whole bias row at every point. -/
theorem blk1_3 (c : Dev nD) (t : Fin cfg1.N) (z : Fin 1) (q : Fin 64) :
    iblk1 V c 3 t (ix2 z q) = V c main_v40 (ix2 z q) := by
  show V c main_v40 (((cfg1.win 3).blk t).view.emb (ix2 z q)) = V c main_v40 (ix2 z q)
  refine congrArg (V c main_v40) (funext fun a => Fin.ext ?_)
  obtain ⟨-, -, -, -, -, -, e0, e1, -⟩ := idx_facts1 t
  match a with
  | ⟨0, _⟩ => show win1_3.index t (0 : Fin 2) * 1 + 1 * z.val = z.val; omega
  | ⟨1, _⟩ => show win1_3.index t (1 : Fin 2) * 64 + 1 * q.val = q.val; omega

/-- The second weight's block is the whole weight at every point. -/
theorem blk1_4 (c : Dev nD) (t : Fin cfg1.N) (q k : Fin 64) :
    iblk1 V c 4 t (ix2 q k) = V c main_arg7 (ix2 q k) := by
  show V c main_arg7 (((cfg1.win 4).blk t).view.emb (ix2 q k)) = V c main_arg7 (ix2 q k)
  refine congrArg (V c main_arg7) (funext fun a => Fin.ext ?_)
  obtain ⟨-, -, -, -, -, -, -, -, e0, e1, -⟩ := idx_facts1 t
  match a with
  | ⟨0, _⟩ => show win1_4.index t (0 : Fin 2) * 64 + 1 * q.val = q.val; omega
  | ⟨1, _⟩ => show win1_4.index t (1 : Fin 2) * 64 + 1 * k.val = k.val; omega

/-- Entry `(p, q)` of the output block at point `t` sits at `(5000 t + p, q)` of the output array. -/
theorem emb1_5 (t : Fin cfg1.N) (p : Fin 5000) (q : Fin 64) :
    ((cfg1.win 5).blk t).view.emb (ix2 p q) = ix2 (rowOf t p) q := by
  refine funext fun a => Fin.ext ?_
  obtain ⟨-, -, -, -, -, -, -, -, -, -, e0, e1⟩ := idx_facts1 t
  match a with
  | ⟨0, _⟩ => show win1_5.index t (0 : Fin 2) * 5000 + 1 * p.val = t.val * 5000 + p.val; omega
  | ⟨1, _⟩ => show win1_5.index t (1 : Fin 2) * 64 + 1 * q.val = q.val; omega

/-- WHAT POINT `t` WRITES BACK is block `t` of the layer's array function of the arrays the region finds: an entry
    of the block depends on its own row of the two row inputs only, and that row is the array's row `5000 t + p`. -/
theorem flushed1_eq (last : (Fin 64 → EReal) → Fin 64 → EReal)
    (hpay : ∀ (x0 x1 : Vec Ideal S5000x64 .f32) (x2 : Vec Ideal S64x64 .f32) (x3 : Vec Ideal S1x64 .f32) (x4 : Vec Ideal S64x64 .f32)
      (p : Fin 5000) (q : Fin 64), out1_5 (F := Ideal) x0 x1 x2 x3 x4 (ix2 p q)
        = last (Sage.denseRow (fun k => x0 (ix2 p k)) (fun k => x1 (ix2 p k)) (fun q k => x2 (ix2 q k)) (fun q k => x4 (ix2 q k))
            (fun q => x3 (ix2 (0 : Fin 1) q))) q)
    (c : Dev nD) (t : Fin cfg1.N) :
    (dat1 V c).flushed 5 t = ((cfg1.win 5).blk t).view.read (Elt Ideal)
      (layerArr last (V c main_v39) (V c main_v26) (V c main_arg5) (V c main_v40) (V c main_arg7)) := by
  show (cfg1.win 5).cut (grid1.coords t) ((dat1 V c).after 5 t) = _
  rw [after1_5]
  funext j
  obtain ⟨p, q, rfl⟩ : ∃ (p : Fin 5000) (q : Fin 64), j = ix2 p q := ⟨j 0, j 1, eq_ix2 j⟩
  show out1_5 (F := Ideal) (iblk1 V c 0 t) (iblk1 V c 1 t) (iblk1 V c 2 t) (iblk1 V c 3 t) (iblk1 V c 4 t) (ix2 p q)
    = layerArr last (V c main_v39) (V c main_v26) (V c main_arg5) (V c main_v40) (V c main_arg7)
        (((cfg1.win 5).blk t).view.emb (ix2 p q))
  rw [hpay, emb1_5 t p q, layerArr_apply]
  simp only [blk1_0 V c t, blk1_1 V c t, blk1_2 V c t, blk1_3 V c t, blk1_4 V c t]

/-- An index of the output array is in point `t`'s block iff each coordinate is in the block's range on its axis. -/
theorem mem_blk1 (t : Fin cfg1.N) (i : S100000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v41).slice (win1_5.rect t)).set ↔ _
  rw [View.set_slice_whole, Rect.mem_set_unit]
  exact Iff.rfl

/-- Every index of the output array is in the block of the point its row falls in: `t = row / 5000`. -/
theorem cover1 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  let t : Fin cfg1.N := ⟨(i 0).val / 5000, by show (i 0).val / 5000 < 20; omega⟩
  have ht : t.val = (i 0).val / 5000 := rfl
  obtain ⟨-, -, -, -, -, -, -, -, -, -, e0, e1⟩ := idx_facts1 t
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- THE OUTPUT ARRAY after the region is the layer's array function of the arrays the region finds. -/
theorem final1 (last : (Fin 64 → EReal) → Fin 64 → EReal)
    (hpay : ∀ (x0 x1 : Vec Ideal S5000x64 .f32) (x2 : Vec Ideal S64x64 .f32) (x3 : Vec Ideal S1x64 .f32) (x4 : Vec Ideal S64x64 .f32)
      (p : Fin 5000) (q : Fin 64), out1_5 (F := Ideal) x0 x1 x2 x3 x4 (ix2 p q)
        = last (Sage.denseRow (fun k => x0 (ix2 p k)) (fun k => x1 (ix2 p k)) (fun q k => x2 (ix2 q k)) (fun q k => x4 (ix2 q k))
            (fun q => x3 (ix2 (0 : Fin 1) q))) q)
    (c : Dev nD) :
    (dat1 V c).arrAt 5 cfg1.N
      = layerArr last (V c main_v39) (V c main_v26) (V c main_arg5) (V c main_v40) (V c main_arg7) :=
  (dat1 V c).arrAt_eq_of_cover 5 _ (fun t _ => flushed1_eq V last hpay c t) (cover1)

end Region1

end Sage.Arr

end
-- ==== Proof.LibKeepdims.lean ====
/-
  Layout operations of a `keepdims` reduction, read at an index given by coordinates, and a rank-2 float sum along one
  axis read at the extended reals.

  A vector of `a` entries viewed as an `a × 1` column holds entry `i` at `(i, 0)`; an `a × 1` column broadcast to
  `a × b` holds, at `(p, c)`, the column's entry `(p, 0)`; the sum of an `a × b` array along its second axis is, at
  row `r`, the sum over the `b` columns of the entries of that row, and along its first axis, at column `c`, the sum
  over the `a` rows of the entries of that column.  Indices are written with the literal-size constructors
  `ix1`, `ix2`, so that each lemma applies to a printed operation by unification.
-/
import Idealize.ShloMosaic.Lib.Pipeline.Value
import Idealize.ShloMosaic.Lib.ValueIdx
import Idealize.ShloMosaic.PureOps.Ideal.Laws

open scoped BigOperators

namespace Cert.LibKeepdims

open Idealize.ShloMosaic Idealize.ShloMosaic.ValueIdx

variable {α : Type}

/-- A vector cast to a column, `[a] → [a, 1]`, reads entry `i` at `(i, 0)`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along its unit axis, `[a, 1] → [a, b]`, reads at `(p, c)` the column's entry `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

variable {φ : FTy}

/-- ROW SUMS. At the extended reals the float sum of an `a × b` array along its second axis is, at row `r`, the sum
    over the columns `c` of the entries `(r, c)`. -/
theorem multiReduction_add_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ c : Fin b, src (ix2 r c) := by
  refine (Ideal.multiReduction_add_single src acc h hφ hacc (ix1 r)).trans ?_
  refine Finset.sum_congr rfl fun c _ => congrArg src (funext fun ax => Fin.ext ?_)
  rw [h.lift_val]
  unfold Shape.Reduces.liftVal
  match ax with
  | ⟨0, _⟩ => rfl
  | ⟨1, _⟩ => rfl

/-- COLUMN SUMS. Along its first axis the sum is, at column `c`, the sum over the rows `r` of the entries `(r, c)`. -/
theorem multiReduction_add_cols {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ src acc h hφ hacc (ix1 c) = ∑ r : Fin a, src (ix2 r c) := by
  refine (Ideal.multiReduction_add_single src acc h hφ hacc (ix1 c)).trans ?_
  refine Finset.sum_congr rfl fun r _ => congrArg src (funext fun ax => Fin.ext ?_)
  rw [h.lift_val]
  unfold Shape.Reduces.liftVal
  match ax with
  | ⟨0, _⟩ => rfl
  | ⟨1, _⟩ => rfl

end Cert.LibKeepdims
-- ==== Proof.KerRows.lean ====
/-
  The two bodies of the two-layer graph convolution, read at one entry of what each leaves in its output buffer.

  Each body holds a block of 5000 rows: the aggregated neighbour features `x0` and the root features `x1`
  (5000 × 64 each), the two 64 × 64 weights `x2`, `x4` and the 1 × 64 bias `x3`. It multiplies each feature block by the
  TRANSPOSE of its weight into a zero accumulator, adds the two products, then adds the bias row to every row. At row
  `p` and lane `q` that is `(∑ k, x0 (p, k) * x2 (q, k)) + (∑ k, x1 (p, k) * x4 (q, k)) + x3 (0, q)`: the row function
  `Sage.denseRow` of rows `p` of the two blocks. The first body then takes the positive part (`Sage.reluRow`); the
  second divides by the row's Euclidean length floored at `Sage.eps` (`Sage.normRow`), the length kept as a 5000 × 1
  column and broadcast along the lanes. Over the extended reals the changes of number format are the identity, and
  a product into the zero accumulator is the plain sum over the contracted coordinate.
-/
import proofs.«165295_j42030549959219_1_alg».proof.Proof.Gen.KernelIdeal.Frame
import proofs.«165295_j42030549959219_1_alg».proof.Proof.Spec
import proofs.«165295_j42030549959219_1_alg».proof.Proof.LibKeepdims
import Idealize.ShloMosaic.Lib.ValueLayout
import Idealize.ShloMosaic.PureOps.Ideal.Laws

open scoped BigOperators

noncomputable section

namespace Sage.Ker

open Idealize.ShloMosaic Idealize.ShloMosaic.ValueIdx Idealize.SL.Sem
open Cert.KernelIdeal Cert.KernelIdeal.Gen Cert.LibKeepdims

/-- The contraction record of both products: rows of the left operand against rows of the (transposed) right one. -/
abbrev rowDot : DotDims S5000x64 S64x64 S5000x64 := dot_S5000x64_S64x64_S5000x64_1_0_0_1_n_n

theorem lhs_row (i : S5000x64.Idx) (c : rowDot.contr.Idx) : (rowDot.lhsIdx i c 0).val = (i 0).val := by
  unfold DotDims.lhsIdx
  rw [dif_neg (show ¬(0 : Fin S5000x64.rank) ∈ rowDot.lhsBatch by decide), dif_pos (show (0 : Fin S5000x64.rank) ∈ rowDot.lhsNonContracting by decide)]
  rfl
theorem lhs_col (i : S5000x64.Idx) (c : rowDot.contr.Idx) : (rowDot.lhsIdx i c 1).val = (c ⟨0, by decide⟩).val :=
  rowDot.lhsIdx_val_of_single rfl i c
theorem rhs_row (i : S5000x64.Idx) (c : rowDot.contr.Idx) : (rowDot.rhsIdx i c 0).val = (c ⟨0, by decide⟩).val :=
  rowDot.rhsIdx_val_of_single rfl i c
theorem rhs_col (i : S5000x64.Idx) (c : rowDot.contr.Idx) : (rowDot.rhsIdx i c 1).val = (i 1).val := by
  unfold DotDims.rhsIdx
  rw [dif_neg (show ¬(1 : Fin S64x64.rank) ∈ rowDot.rhsBatch by decide), dif_pos (show (1 : Fin S64x64.rank) ∈ rowDot.rhsNonContracting by decide)]
  rfl

/-- A product into the zero accumulator, read at row p and column q: the sum over k of the left operand at (p, k) times the right at (k, q). -/
theorem matmul_zero_apply (a : FVec Ideal S5000x64 .bf16) (w : FVec Ideal S64x64 .bf16) (p : Fin 5000) (q : Fin 64) :
    matmul rowDot none a w (constant (F := Ideal) S5000x64 .f32 0x00000000#32) (ix2 p q)
      = ∑ k : Fin 64, a (ix2 p k) * w (ix2 k q) := by
  simp only [matmul]
  rw [Ideal.matmul_constant_zero_apply, ← Equiv.sum_comp (contrEquiv1 rowDot 64 rfl rfl).symm]
  refine Finset.sum_congr rfl fun k _ => ?_
  have hk := contrEquiv1_symm_val rowDot 64 rfl rfl k
  have el : rowDot.lhsIdx (ix2 p q) ((contrEquiv1 rowDot 64 rfl rfl).symm k) = ix2 p k := funext fun ax => Fin.ext (by
    match ax with
    | ⟨0, _⟩ => exact lhs_row _ _
    | ⟨1, _⟩ => exact (lhs_col _ _).trans hk)
  have er : rowDot.rhsIdx (ix2 p q) ((contrEquiv1 rowDot 64 rfl rfl).symm k) = ix2 k q := funext fun ax => Fin.ext (by
    match ax with
    | ⟨0, _⟩ => exact (rhs_row _ _).trans hk
    | ⟨1, _⟩ => exact rhs_col _ _)
  rw [el, er]

/-- The same product against the TRANSPOSE of a 64 × 64 weight: the sum over k of the left operand at (p, k) times the weight at (q, k). -/
theorem matmulT_zero_apply (a : FVec Ideal S5000x64 .bf16) (w : FVec Ideal S64x64 .bf16) (p : Fin 5000) (q : Fin 64) :
    matmul rowDot none a (transpose S64x64 [1, 0] w transposes_S64x64_p1_0_S64x64)
        (constant (F := Ideal) S5000x64 .f32 0x00000000#32) (ix2 p q)
      = ∑ k : Fin 64, a (ix2 p k) * w (ix2 q k) := by
  refine (matmul_zero_apply a _ p q).trans ?_
  refine Finset.sum_congr rfl fun k _ => congrArg (a (ix2 p k) * ·) ?_
  exact transpose_ix2_apply w transposes_S64x64_p1_0_S64x64 k q

/-- The entry (p, q) of a layer before its last step, as the body computes it: the two products with the transposed
    weights, added, then the bias row added — the row function `Sage.denseRow` of rows p of the two feature blocks. -/
theorem dense_apply (y0 y1 : FVec Ideal S5000x64 .f32) (x2 x4 : FVec Ideal S64x64 .f32) (x3 : FVec Ideal S1x64 .f32)
    (p : Fin 5000) (q : Fin 64) :
    addf
        (addf
          (matmul rowDot none (truncf .bf16 y0 bitsLt_bf16_f32)
            (transpose S64x64 [1, 0] (truncf .bf16 x2 bitsLt_bf16_f32) transposes_S64x64_p1_0_S64x64)
            (constant (F := Ideal) S5000x64 .f32 0x00000000#32))
          (matmul rowDot none (truncf .bf16 y1 bitsLt_bf16_f32)
            (transpose S64x64 [1, 0] (truncf .bf16 x4 bitsLt_bf16_f32) transposes_S64x64_p1_0_S64x64)
            (constant (F := Ideal) S5000x64 .f32 0x00000000#32)))
        (broadcastTo S5000x64 x3 broadcasts_S1x64_S5000x64) (ix2 p q)
      = Sage.denseRow (fun k => y0 (ix2 p k)) (fun k => y1 (ix2 p k)) (fun q k => x2 (ix2 q k))
          (fun q k => x4 (ix2 q k)) (fun q => x3 (ix2 (0 : Fin 1) q)) q := by
  unfold Sage.denseRow
  refine (addf_apply _ _ _).trans (congrArg₂ (· + ·) ?_ ?_)
  · refine (addf_apply _ _ _).trans (congrArg₂ (· + ·) ?_ ?_)
    · exact matmulT_zero_apply _ _ p q
    · exact matmulT_zero_apply _ _ p q
  · exact broadcastTo_1b_ab_apply _ _ p q

/-- The zero offsets of a whole-buffer rectangle, however they are spelt. -/
theorem zero_offsets : (![0, 0] : Fin 2 → Nat) = fun _ => 0 := funext fun a => by fin_cases a <;> rfl

/-- REGION 0. What the first body leaves in its output buffer, at (p, q): the positive part of the layer's entry q on
    rows p of its two feature blocks. The body loads its five whole buffers and stores once through the whole output
    buffer, so the buffer holds the store's value; the shape casts to the same shape are the identity. -/
theorem out0_apply (x0 x1 : Vec Ideal S5000x64 .f32) (x2 : Vec Ideal S64x64 .f32) (x3 : Vec Ideal S1x64 .f32)
    (x4 : Vec Ideal S64x64 .f32) (p : Fin 5000) (q : Fin 64) :
    out0_5 (F := Ideal) x0 x1 x2 x3 x4 (ix2 p q)
      = Sage.reluRow (Sage.denseRow (fun k => x0 (ix2 p k)) (fun k => x1 (ix2 p k)) (fun q k => x2 (ix2 q k))
          (fun q k => x4 (ix2 q k)) (fun q => x3 (ix2 (0 : Fin 1) q))) q := by
  unfold out0_5
  rw [View.canon_unit_zero zero_offsets]
  simp only [View.ld_unit_zero (S := S5000x64) zero_offsets, View.ld_unit_zero (S := S64x64) zero_offsets, View.ld_unit_zero (S := S1x64) zero_offsets]
  unfold k0_pay1 Sage.reluRow
  simp only [shapeCast_self]
  refine (maximumf_apply _ _ _).trans (congrArg₂ max ?_ ?_)
  · exact dense_apply x0 x1 x2 x4 x3 p q
  · exact Ideal.ofBits_zero_f32

/-- REGION 1. What the second body leaves in its output buffer, at (p, q): the layer's entry q divided by the row's
    Euclidean length floored at `Sage.eps`. The length is read where the body keeps it: the row sums of the squares
    as a vector of 5000, viewed as a 5000 × 1 column, square-rooted and floored there, and the column broadcast along
    the 64 lanes. -/
theorem out1_apply (x0 x1 : Vec Ideal S5000x64 .f32) (x2 : Vec Ideal S64x64 .f32) (x3 : Vec Ideal S1x64 .f32)
    (x4 : Vec Ideal S64x64 .f32) (p : Fin 5000) (q : Fin 64) :
    out1_5 (F := Ideal) x0 x1 x2 x3 x4 (ix2 p q)
      = Sage.normRow (Sage.denseRow (fun k => x0 (ix2 p k)) (fun k => x1 (ix2 p k)) (fun q k => x2 (ix2 q k))
          (fun q k => x4 (ix2 q k)) (fun q => x3 (ix2 (0 : Fin 1) q))) q := by
  unfold out1_5
  rw [View.canon_unit_zero zero_offsets]
  simp only [View.ld_unit_zero (S := S5000x64) zero_offsets, View.ld_unit_zero (S := S64x64) zero_offsets, View.ld_unit_zero (S := S1x64) zero_offsets]
  unfold k1_pay1 Sage.normRow
  simp only [shapeCast_self]
  refine (divf_apply _ _ _).trans (congrArg₂ Ideal.div ?_ ?_)
  · exact dense_apply x0 x1 x2 x4 x3 p q
  · refine (broadcastTo_a1_ab_apply _ _ p q).trans ?_
    refine (maximumf_apply _ _ _).trans (congrArg₂ max ?_ ?_)
    · show Ideal.sqrt _ = Ideal.sqrt _
      refine congrArg Ideal.sqrt ?_
      refine (shapeCast_a_a1_apply _ _ p (0 : Fin 1)).trans ?_
      refine (multiReduction_add_rows _ _ _ _ _ p).trans (Finset.sum_congr rfl fun q' _ => ?_)
      refine (mulf_apply _ _ _).trans (congrArg₂ (· * ·) ?_ ?_)
      · exact dense_apply x0 x1 x2 x4 x3 p q'
      · exact dense_apply x0 x1 x2 x4 x3 p q'
    · rfl

end Sage.Ker

end
-- ==== Proof.HostGlue.lean ====
/-
  The host operations around the two regions, read as functions of the argument arrays.

  Before the first region the program slices the edge list into its sources `s` and destinations `d`, counts the
  edges arriving at each node (a scatter-add of ones), floors the count at one, takes its inverse `1 / max n 1`, and
  forms the neighbour mean of the node features: the scatter-add over destinations of the gathered source rows, times
  the inverse broadcast along the rows. Between the regions it forms the same mean of the first layer's output, from the
  same `s`, `d` and inverse. The gather and the two scatter-adds are carried as named functions and never opened.
-/
import proofs.«165295_j42030549959219_1_alg».proof.Proof.Gen.KernelIdeal.Frame
import Idealize.ShloMosaic.Lib.StableHlo.Run
import Idealize.ShloMosaic.PureOps.Ideal

set_option maxRecDepth 16384

noncomputable section

namespace Sage.Host

open Cert.KernelIdeal Cert.KernelIdeal.Gen
open Idealize.ShloMosaic Idealize.ShloMosaic.TcCoe Idealize.SL.Sem Idealize.ShloMosaic.StableHlo

/-- Row `r` of the 2 × E edge list as a vector of E node numbers. -/
def edgeRow0 (e : (⟨S2x1600000, .i32⟩ : BufTy).Contents (Elt Ideal)) : (⟨S1600000, .i32⟩ : BufTy).Contents (Elt Ideal) :=
  shapeCast _ (extractStridedSlice S1x1600000 ![0, 0] e slices_S2x1600000_S1x1600000_0_0) shapeCasts_S1x1600000_S1600000
def edgeRow1 (e : (⟨S2x1600000, .i32⟩ : BufTy).Contents (Elt Ideal)) : (⟨S1600000, .i32⟩ : BufTy).Contents (Elt Ideal) :=
  shapeCast _ (extractStridedSlice S1x1600000 ![1, 0] e slices_S2x1600000_S1x1600000_1_0) shapeCasts_S1x1600000_S1600000

/-- The number of edges arriving at each node, floored at one. -/
def cntFloor (d : (⟨S1600000, .i32⟩ : BufTy).Contents (Elt Ideal)) : (⟨S100000, .f32⟩ : BufTy).Contents (Elt Ideal) :=
  maximumf
    (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 d)
      (broadcastInDim S1600000 ![] bcast_S_S1600000 (constant (F := Ideal) S_ .f32 0x3F800000#32)))
    (broadcastInDim S100000 ![] bcast_S_S100000 (constant (F := Ideal) S_ .f32 0x3F800000#32))

/-- One over the floored count. -/
def invCnt (d : (⟨S1600000, .i32⟩ : BufTy).Contents (Elt Ideal)) : (⟨S100000, .f32⟩ : BufTy).Contents (Elt Ideal) :=
  Host.divf (broadcastInDim S100000 ![] bcast_S_S100000 (constant (F := Ideal) S_ .f32 0x3F800000#32)) (cntFloor d)

/-- The sum, at each node, of the feature rows of the sources of the edges arriving there. -/
def nbrSum (f : (⟨S100000x64, .f32⟩ : BufTy).Contents (Elt Ideal)) (s d : (⟨S1600000, .i32⟩ : BufTy).Contents (Elt Ideal)) :
    (⟨S100000x64, .f32⟩ : BufTy).Contents (Elt Ideal) :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 d)
    (Host.gather gather_S100000x64_S1600000x1_S1600000x64_1_0_n_n_0_1_164 f
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- The neighbour mean as the product of the sum with an inverse count `iv`, broadcast along the rows. -/
def meanMul (f : (⟨S100000x64, .f32⟩ : BufTy).Contents (Elt Ideal)) (s d : (⟨S1600000, .i32⟩ : BufTy).Contents (Elt Ideal))
    (iv : (⟨S100000, .f32⟩ : BufTy).Contents (Elt Ideal)) : (⟨S100000x64, .f32⟩ : BufTy).Contents (Elt Ideal) :=
  mulf (F := Ideal) (φ := .f32) (nbrSum f s d)
    (broadcastInDim S100000x64 ![0, 1] bcast_S100000x1_S100000x64_0_1 (broadcastInDim S100000x1 ![0] bcast_S100000_S100000x1_0 iv))

variable (m : (ℓ : Loc nD τ sig) → Buf (Elt Ideal) ℓ) (ρ : Dev nD → PrngReg)

/-! ## The first region's entry contents -/

theorem V1_v1 (c : Dev nD) : (V1 m ρ c main_v1 : (⟨S1600000, .i32⟩ : BufTy).Contents (Elt Ideal)) = edgeRow0 (m ((c : Thread nD τ).loc main_arg1)) := by
  show StableHlo.after hostOps0 (W0 m ρ c) (Proc.devRef .tc main_v1) = _
  after_results_simp
  rfl

theorem V1_v3 (c : Dev nD) : (V1 m ρ c main_v3 : (⟨S1600000, .i32⟩ : BufTy).Contents (Elt Ideal)) = edgeRow1 (m ((c : Thread nD τ).loc main_arg1)) := by
  show StableHlo.after hostOps0 (W0 m ρ c) (Proc.devRef .tc main_v3) = _
  after_results_simp
  rfl

theorem V1_v11 (c : Dev nD) : (V1 m ρ c main_v11 : (⟨S100000, .f32⟩ : BufTy).Contents (Elt Ideal)) = invCnt (edgeRow1 (m ((c : Thread nD τ).loc main_arg1))) := by
  show StableHlo.after hostOps0 (W0 m ρ c) (Proc.devRef .tc main_v11) = _
  after_results_simp
  rfl

theorem V1_v24 (c : Dev nD) : (V1 m ρ c main_v24 : (⟨S100000x64, .f32⟩ : BufTy).Contents (Elt Ideal))
    = meanMul (m ((c : Thread nD τ).loc main_arg0)) (edgeRow0 (m ((c : Thread nD τ).loc main_arg1))) (edgeRow1 (m ((c : Thread nD τ).loc main_arg1)))
        (invCnt (edgeRow1 (m ((c : Thread nD τ).loc main_arg1)))) := by
  show StableHlo.after hostOps0 (W0 m ρ c) (Proc.devRef .tc main_v24) = _
  after_results_simp
  rfl

theorem V1_v25 (c : Dev nD) : (V1 m ρ c main_v25 : (⟨S1x64, .f32⟩ : BufTy).Contents (Elt Ideal))
    = shapeCast _ (m ((c : Thread nD τ).loc main_arg3)) shapeCasts_S64_S1x64 := by
  show StableHlo.after hostOps0 (W0 m ρ c) (Proc.devRef .tc main_v25) = _
  after_results_simp
  rfl

theorem V1_arg0 (c : Dev nD) : V1 m ρ c main_arg0 = m ((c : Thread nD τ).loc main_arg0) := by
  show StableHlo.after hostOps0 (W0 m ρ c) (Proc.devRef .tc main_arg0) = _
  after_results_simp
theorem V1_arg2 (c : Dev nD) : V1 m ρ c main_arg2 = m ((c : Thread nD τ).loc main_arg2) := by
  show StableHlo.after hostOps0 (W0 m ρ c) (Proc.devRef .tc main_arg2) = _
  after_results_simp
theorem V1_arg4 (c : Dev nD) : V1 m ρ c main_arg4 = m ((c : Thread nD τ).loc main_arg4) := by
  show StableHlo.after hostOps0 (W0 m ρ c) (Proc.devRef .tc main_arg4) = _
  after_results_simp
theorem V1_arg5 (c : Dev nD) : V1 m ρ c main_arg5 = m ((c : Thread nD τ).loc main_arg5) := by
  show StableHlo.after hostOps0 (W0 m ρ c) (Proc.devRef .tc main_arg5) = _
  after_results_simp
theorem V1_arg6 (c : Dev nD) : V1 m ρ c main_arg6 = m ((c : Thread nD τ).loc main_arg6) := by
  show StableHlo.after hostOps0 (W0 m ρ c) (Proc.devRef .tc main_arg6) = _
  after_results_simp
theorem V1_arg7 (c : Dev nD) : V1 m ρ c main_arg7 = m ((c : Thread nD τ).loc main_arg7) := by
  show StableHlo.after hostOps0 (W0 m ρ c) (Proc.devRef .tc main_arg7) = _
  after_results_simp

/-! ## The second region's entry contents

The host operations between the regions read the sources, the destinations and the inverse count that the first
stretch computed, and the first region's output array; no region and no later operation writes those three vectors,
so at the first region's exit they hold what they held at its entry. -/

theorem W2_v1 (c : Dev nD) : W2 m ρ c (Proc.devRef .tc main_v1) = W1 m ρ c (Proc.devRef .tc main_v1) :=
  W2_of_ne m ρ c main_v1 (by decide)
theorem W2_v3 (c : Dev nD) : W2 m ρ c (Proc.devRef .tc main_v3) = W1 m ρ c (Proc.devRef .tc main_v3) :=
  W2_of_ne m ρ c main_v3 (by decide)
theorem W2_v11 (c : Dev nD) : W2 m ρ c (Proc.devRef .tc main_v11) = W1 m ρ c (Proc.devRef .tc main_v11) :=
  W2_of_ne m ρ c main_v11 (by decide)
theorem W2_arg5 (c : Dev nD) : W2 m ρ c (Proc.devRef .tc main_arg5) = W1 m ρ c (Proc.devRef .tc main_arg5) :=
  W2_of_ne m ρ c main_arg5 (by decide)
theorem W2_arg6 (c : Dev nD) : W2 m ρ c (Proc.devRef .tc main_arg6) = W1 m ρ c (Proc.devRef .tc main_arg6) :=
  W2_of_ne m ρ c main_arg6 (by decide)
theorem W2_arg7 (c : Dev nD) : W2 m ρ c (Proc.devRef .tc main_arg7) = W1 m ρ c (Proc.devRef .tc main_arg7) :=
  W2_of_ne m ρ c main_arg7 (by decide)

/-- The first layer's output, at the first region's exit: what the region's write-backs leave of its output array. -/
theorem W2_v26 (c : Dev nD) : W2 m ρ c (Proc.devRef .tc main_v26) = (dat0 (V1 m ρ) c).arrAt 5 cfg0.N :=
  W2_arr m ρ c 5

theorem V3_v39 (c : Dev nD) : (V3 m ρ c main_v39 : (⟨S100000x64, .f32⟩ : BufTy).Contents (Elt Ideal))
    = meanMul (W2 m ρ c (Proc.devRef .tc main_v26)) (W2 m ρ c (Proc.devRef .tc main_v1)) (W2 m ρ c (Proc.devRef .tc main_v3))
        (W2 m ρ c (Proc.devRef .tc main_v11)) := by
  show StableHlo.after hostOps1 (W2 m ρ c) (Proc.devRef .tc main_v39) = _
  after_results_simp
  rfl

theorem V3_v40 (c : Dev nD) : (V3 m ρ c main_v40 : (⟨S1x64, .f32⟩ : BufTy).Contents (Elt Ideal))
    = shapeCast _ (W2 m ρ c (Proc.devRef .tc main_arg6)) shapeCasts_S64_S1x64 := by
  show StableHlo.after hostOps1 (W2 m ρ c) (Proc.devRef .tc main_v40) = _
  after_results_simp
  rfl

theorem V3_v26 (c : Dev nD) : V3 m ρ c main_v26 = W2 m ρ c (Proc.devRef .tc main_v26) := by
  show StableHlo.after hostOps1 (W2 m ρ c) (Proc.devRef .tc main_v26) = _
  after_results_simp
theorem V3_arg5 (c : Dev nD) : V3 m ρ c main_arg5 = W2 m ρ c (Proc.devRef .tc main_arg5) := by
  show StableHlo.after hostOps1 (W2 m ρ c) (Proc.devRef .tc main_arg5) = _
  after_results_simp
theorem V3_arg7 (c : Dev nD) : V3 m ρ c main_arg7 = W2 m ρ c (Proc.devRef .tc main_arg7) := by
  show StableHlo.after hostOps1 (W2 m ρ c) (Proc.devRef .tc main_arg7) = _
  after_results_simp

end Sage.Host

end
-- ==== Proof.MeanBridge.lean ====
/-
  The neighbour mean, the two ways.

  One program multiplies the neighbour sum by `1 / max n 1`, the other divides it by `max n 1`, `n` the number of
  edges arriving at the node. Entry by entry these agree on all extended reals, because `max n 1` is never zero: off zero
  a quotient is the product with the inverse, and `1 / c` is the inverse of `c`. The sum itself — a gather and a
  scatter-add — and the count are the same functions of the same arrays in both programs and are not opened.
-/
import proofs.«165295_j42030549959219_1_alg».proof.Proof.HostGlue
import proofs.«165295_j42030549959219_1_alg».proof.Proof.Spec
import proofs.«165295_j42030549959219_1_alg».proof.Proof.Gen.ReferenceIdeal.Read
import Idealize.ShloMosaic.Lib.ValueIdx
import Idealize.ShloMosaic.Lib.Pipeline.Value

set_option maxRecDepth 16384

noncomputable section

namespace Sage.Mean

open Cert.KernelIdeal Cert.KernelIdeal.Gen
open Idealize.ShloMosaic Idealize.ShloMosaic.ValueIdx Idealize.SL.Sem
open Sage.Host

/-- A vector broadcast to a column and the column along the rows reads, at `(i, q)`, the vector's entry `i`. -/
theorem bcastCol_apply (v : (⟨S100000, .f32⟩ : BufTy).Contents (Elt Ideal)) (i : Fin 100000) (q : Fin 64) :
    broadcastInDim S100000x64 ![0, 1] bcast_S100000x1_S100000x64_0_1
      (broadcastInDim S100000x1 ![0] bcast_S100000_S100000x1_0 v) (ix2 i q) = v (ix1 i) := by
  refine (broadcastInDim_apply _ bcast_S100000x1_S100000x64_0_1 _ (ix2 i q) (ix2 i (0 : Fin 1)) (fun a => ?_)).trans ?_
  · match a with
    | ⟨0, _⟩ => show i.val = if (100000 : Nat) = 1 then 0 else i.val; rw [if_neg (by decide)]
    | ⟨1, _⟩ => show 0 = if (1 : Nat) = 1 then 0 else q.val; rw [if_pos rfl]
  · exact broadcastInDim_apply _ bcast_S100000_S100000x1_0 v (ix2 i (0 : Fin 1)) (ix1 i) (fun a => match a with
      | ⟨0, _⟩ => by show i.val = if (100000 : Nat) = 1 then 0 else i.val; rw [if_neg (by decide)])

/-- The vector of ones holds the number one at every entry. -/
theorem ones_apply (i : S100000.Idx) :
    broadcastInDim S100000 ![] bcast_S_S100000 (constant (F := Ideal) S_ .f32 0x3F800000#32) i = 1 :=
  (broadcastInDim_apply _ bcast_S_S100000 _ i (fun a => a.elim0) (fun a => a.elim0)).trans Sage.one_f32

/-- The floored count is not zero. -/
theorem cntFloor_ne_zero (d : (⟨S1600000, .i32⟩ : BufTy).Contents (Elt Ideal)) (i : S100000.Idx) : cntFloor d i ≠ 0 := by
  unfold cntFloor
  refine ne_of_eq_of_ne (maximumf_apply _ _ i) ?_
  rw [ones_apply]
  exact (lt_of_lt_of_le zero_lt_one (le_max_right _ 1)).ne'

/-- A host quotient of two arrays is, entry by entry, the quotient of the entries. -/
theorem hostDivf_apply {s : Shape} (a b : FVec Ideal s .f32) (i : s.Idx) : Host.divf a b i = Ideal.div (a i) (b i) := rfl

/-- The inverse count at a node is one over the floored count there. -/
theorem invCnt_apply (d : (⟨S1600000, .i32⟩ : BufTy).Contents (Elt Ideal)) (i : S100000.Idx) :
    invCnt d i = Ideal.div 1 (cntFloor d i) := by
  unfold invCnt
  rw [hostDivf_apply, ones_apply]

/-- The mean as a product, entry by entry, is the neighbour sum divided by the floored count. -/
theorem meanMul_invCnt_apply (f : (⟨S100000x64, .f32⟩ : BufTy).Contents (Elt Ideal)) (s d : (⟨S1600000, .i32⟩ : BufTy).Contents (Elt Ideal))
    (i : Fin 100000) (q : Fin 64) :
    meanMul f s d (invCnt d) (ix2 i q) = Ideal.div (nbrSum f s d (ix2 i q)) (cntFloor d (ix1 i)) := by
  unfold meanMul
  refine (mulf_apply _ _ _).trans ?_
  rw [bcastCol_apply, invCnt_apply]
  exact Sage.mul_one_div _ _ (cntFloor_ne_zero d (ix1 i))

/-! ## The same functions under the other program's names -/

theorem nbrSum_ref (x0 : (⟨S100000x64, .f32⟩ : BufTy).Contents (Elt Ideal)) (x1 : (⟨S2x1600000, .i32⟩ : BufTy).Contents (Elt Ideal)) :
    nbrSum x0 (edgeRow0 x1) (edgeRow1 x1) = Cert.ReferenceIdeal.Read.val_main_v13 (F := Ideal) x0 x1 := rfl

theorem cntFloor_ref (x1 : (⟨S2x1600000, .i32⟩ : BufTy).Contents (Elt Ideal)) :
    cntFloor (edgeRow1 x1) = Cert.ReferenceIdeal.Read.val_main_v19 (F := Ideal) x1 := rfl

end Sage.Mean

end
-- ==== Proof.Bridge.lean ====
/-
  The kernel's result array is the reference's last stage.

  Layer by layer. The first region leaves, in its output array, the first layer's function of the arrays it finds; those
  are the neighbour mean of the node features (as a product with the inverse count), the node features, the two weights
  and the bias as a row. The mean as a product is the mean as a quotient, so this array is the reference's first-layer
  stage. The host operations between the regions form the neighbour mean of that array from the same sources,
  destinations and inverse count; the second region leaves the second layer's function of that mean, the first layer's
  output and the second weights and bias: the reference's last stage.
-/
import proofs.«165295_j42030549959219_1_alg».proof.Proof.KernelRun
import proofs.«165295_j42030549959219_1_alg».proof.Proof.RegionArr
import proofs.«165295_j42030549959219_1_alg».proof.Proof.KerRows
import proofs.«165295_j42030549959219_1_alg».proof.Proof.HostGlue
import proofs.«165295_j42030549959219_1_alg».proof.Proof.MeanBridge
import proofs.«165295_j42030549959219_1_alg».proof.Proof.Gen.ReferenceIdeal.Read
import Idealize.ShloMosaic.Lib.ValueLayout

set_option maxRecDepth 16384

noncomputable section

namespace Sage.Bridge

open Cert.KernelIdeal Cert.KernelIdeal.Gen
open Idealize.ShloMosaic Idealize.ShloMosaic.TcCoe Idealize.ShloMosaic.ValueIdx Idealize.SL.Sem
open Sage.Host Sage.Arr Sage.Mean

section Pure

variable (x0 : (⟨S100000x64, .f32⟩ : BufTy).Contents (Elt Ideal)) (x1 : (⟨S2x1600000, .i32⟩ : BufTy).Contents (Elt Ideal))
  (x2 : (⟨S64x64, .f32⟩ : BufTy).Contents (Elt Ideal)) (x3 : (⟨S64, .f32⟩ : BufTy).Contents (Elt Ideal))
  (x4 x5 : (⟨S64x64, .f32⟩ : BufTy).Contents (Elt Ideal)) (x6 : (⟨S64, .f32⟩ : BufTy).Contents (Elt Ideal))
  (x7 : (⟨S64x64, .f32⟩ : BufTy).Contents (Elt Ideal))

/-- The mean of the node features as a product is the reference's mean as a quotient. -/
theorem mean1_eq :
    meanMul x0 (edgeRow0 x1) (edgeRow1 x1) (invCnt (edgeRow1 x1)) = Cert.ReferenceIdeal.Read.val_main_v22 (F := Ideal) x0 x1 := by
  funext j
  obtain ⟨i, q, rfl⟩ : ∃ (i : Fin 100000) (q : Fin 64), j = ix2 i q := ⟨j 0, j 1, eq_ix2 j⟩
  rw [meanMul_invCnt_apply, nbrSum_ref, cntFloor_ref, Cert.ReferenceIdeal.Read.val_main_v22_apply, Cert.ReferenceIdeal.Read.val_main_v21_apply,
    Cert.ReferenceIdeal.Read.val_main_v20_apply]
  have hidx : Cert.ReferenceIdeal.Read.idx_main_v20 (Cert.ReferenceIdeal.Read.idx_main_v21 (ix2 i q)) = ix1 i :=
    funext fun a => Fin.ext (by match a with | ⟨0, _⟩ => rfl)
  rw [hidx]
  rfl

/-- The neighbour sum and the floored count of the second layer, under the reference's names. -/
theorem nbrSum_ref2 :
    nbrSum (Cert.ReferenceIdeal.Read.val_main_v31 (F := Ideal) x0 x1 x2 x3 x4) (edgeRow0 x1) (edgeRow1 x1)
      = Cert.ReferenceIdeal.Read.val_main_v41 (F := Ideal) x0 x1 x2 x3 x4 := rfl
theorem cntFloor_ref2 : cntFloor (edgeRow1 x1) = Cert.ReferenceIdeal.Read.val_main_v47 (F := Ideal) x1 := rfl

/-- The mean of the first layer's output as a product is the reference's mean as a quotient. -/
theorem mean2_eq :
    meanMul (Cert.ReferenceIdeal.Read.val_main_v31 (F := Ideal) x0 x1 x2 x3 x4) (edgeRow0 x1) (edgeRow1 x1) (invCnt (edgeRow1 x1))
      = Cert.ReferenceIdeal.Read.val_main_v50 (F := Ideal) x0 x1 x2 x3 x4 := by
  funext j
  obtain ⟨i, q, rfl⟩ : ∃ (i : Fin 100000) (q : Fin 64), j = ix2 i q := ⟨j 0, j 1, eq_ix2 j⟩
  rw [meanMul_invCnt_apply, nbrSum_ref2, cntFloor_ref2, Cert.ReferenceIdeal.Read.val_main_v50_apply, Cert.ReferenceIdeal.Read.val_main_v49_apply,
    Cert.ReferenceIdeal.Read.val_main_v48_apply]
  have hidx : Cert.ReferenceIdeal.Read.idx_main_v48 (Cert.ReferenceIdeal.Read.idx_main_v49 (ix2 i q)) = ix1 i :=
    funext fun a => Fin.ext (by match a with | ⟨0, _⟩ => rfl)
  rw [hidx]
  rfl

/-- The first layer's array function of the reference's mean is the reference's first-layer stage. -/
theorem layer1_eq
    (hR1 : ∀ (i : Fin 100000) (q : Fin 64), Cert.ReferenceIdeal.Read.val_main_v31 (F := Ideal) x0 x1 x2 x3 x4 (ix2 i q)
      = Sage.reluRow (Sage.denseRow (fun k => Cert.ReferenceIdeal.Read.val_main_v22 (F := Ideal) x0 x1 (ix2 i k)) (fun k => x0 (ix2 i k))
          (fun q k => x2 (ix2 q k)) (fun q k => x4 (ix2 q k)) (fun q => x3 (ix1 q))) q) :
    layerArr Sage.reluRow (Cert.ReferenceIdeal.Read.val_main_v22 (F := Ideal) x0 x1) x0 x2 (shapeCast _ x3 shapeCasts_S64_S1x64) x4
      = Cert.ReferenceIdeal.Read.val_main_v31 (F := Ideal) x0 x1 x2 x3 x4 := by
  funext j
  obtain ⟨i, q, rfl⟩ : ∃ (i : Fin 100000) (q : Fin 64), j = ix2 i q := ⟨j 0, j 1, eq_ix2 j⟩
  rw [layerArr_apply, hR1 i q]
  simp only [shapeCast_a_1a_apply]

/-- The second layer's array function of the reference's second mean and first-layer stage is its last stage. -/
theorem layer2_eq
    (hR2 : ∀ (i : Fin 100000) (q : Fin 64), Cert.ReferenceIdeal.Read.val_main_v63 (F := Ideal) x0 x1 x2 x3 x4 x5 x6 x7 (ix2 i q)
      = Sage.normRow (Sage.denseRow (fun k => Cert.ReferenceIdeal.Read.val_main_v50 (F := Ideal) x0 x1 x2 x3 x4 (ix2 i k))
          (fun k => Cert.ReferenceIdeal.Read.val_main_v31 (F := Ideal) x0 x1 x2 x3 x4 (ix2 i k))
          (fun q k => x5 (ix2 q k)) (fun q k => x7 (ix2 q k)) (fun q => x6 (ix1 q))) q) :
    layerArr Sage.normRow (Cert.ReferenceIdeal.Read.val_main_v50 (F := Ideal) x0 x1 x2 x3 x4) (Cert.ReferenceIdeal.Read.val_main_v31 (F := Ideal) x0 x1 x2 x3 x4) x5
        (shapeCast _ x6 shapeCasts_S64_S1x64) x7
      = Cert.ReferenceIdeal.Read.val_main_v63 (F := Ideal) x0 x1 x2 x3 x4 x5 x6 x7 := by
  funext j
  obtain ⟨i, q, rfl⟩ : ∃ (i : Fin 100000) (q : Fin 64), j = ix2 i q := ⟨j 0, j 1, eq_ix2 j⟩
  rw [layerArr_apply, hR2 i q]
  simp only [shapeCast_a_1a_apply]

end Pure

variable (m : (ℓ : Loc nD τ sig) → Buf (Elt Ideal) ℓ) (ρ : Dev nD → PrngReg)

/-- At the first region's exit: the sources, the destinations, the inverse count and the later arguments. -/
theorem src_eq (c : Dev nD) : W2 m ρ c (Proc.devRef .tc main_v1) = edgeRow0 (m ((c : Thread nD τ).loc main_arg1)) :=
  (W2_v1 m ρ c).trans (V1_v1 m ρ c)
theorem dst_eq (c : Dev nD) : W2 m ρ c (Proc.devRef .tc main_v3) = edgeRow1 (m ((c : Thread nD τ).loc main_arg1)) :=
  (W2_v3 m ρ c).trans (V1_v3 m ρ c)
theorem inv_eq (c : Dev nD) : W2 m ρ c (Proc.devRef .tc main_v11) = invCnt (edgeRow1 (m ((c : Thread nD τ).loc main_arg1))) :=
  (W2_v11 m ρ c).trans (V1_v11 m ρ c)
theorem arg5_eq (c : Dev nD) : W2 m ρ c (Proc.devRef .tc main_arg5) = m ((c : Thread nD τ).loc main_arg5) :=
  (W2_arg5 m ρ c).trans (V1_arg5 m ρ c)
theorem arg6_eq (c : Dev nD) : W2 m ρ c (Proc.devRef .tc main_arg6) = m ((c : Thread nD τ).loc main_arg6) :=
  (W2_arg6 m ρ c).trans (V1_arg6 m ρ c)
theorem arg7_eq (c : Dev nD) : W2 m ρ c (Proc.devRef .tc main_arg7) = m ((c : Thread nD τ).loc main_arg7) :=
  (W2_arg7 m ρ c).trans (V1_arg7 m ρ c)

/-- THE FIRST LAYER. At the first region's exit its output array is the reference's first-layer stage of the arguments. -/
theorem h1_eq
    (hR1 : ∀ (x0 : (⟨S100000x64, .f32⟩ : BufTy).Contents (Elt Ideal)) (x1 : (⟨S2x1600000, .i32⟩ : BufTy).Contents (Elt Ideal))
      (x2 : (⟨S64x64, .f32⟩ : BufTy).Contents (Elt Ideal)) (x3 : (⟨S64, .f32⟩ : BufTy).Contents (Elt Ideal))
      (x4 : (⟨S64x64, .f32⟩ : BufTy).Contents (Elt Ideal)) (i : Fin 100000) (q : Fin 64),
      Cert.ReferenceIdeal.Read.val_main_v31 (F := Ideal) x0 x1 x2 x3 x4 (ix2 i q)
        = Sage.reluRow (Sage.denseRow (fun k => Cert.ReferenceIdeal.Read.val_main_v22 (F := Ideal) x0 x1 (ix2 i k)) (fun k => x0 (ix2 i k))
            (fun q k => x2 (ix2 q k)) (fun q k => x4 (ix2 q k)) (fun q => x3 (ix1 q))) q)
    (c : Dev nD) :
    W2 m ρ c (Proc.devRef .tc main_v26) = Cert.ReferenceIdeal.Read.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_v26 m ρ c).trans ((final0 (V1 m ρ) Sage.reluRow Sage.Ker.out0_apply c).trans ?_)
  rw [V1_v24 m ρ c, V1_arg0 m ρ c, V1_arg2 m ρ c, V1_v25 m ρ c, V1_arg4 m ρ c, mean1_eq]
  exact layer1_eq _ _ _ _ _ (hR1 _ _ _ _ _)

/-- THE RESULT. At the last boundary the result array is the reference's last stage of the arguments. -/
theorem kernel_result
    (hR1 : ∀ (x0 : (⟨S100000x64, .f32⟩ : BufTy).Contents (Elt Ideal)) (x1 : (⟨S2x1600000, .i32⟩ : BufTy).Contents (Elt Ideal))
      (x2 : (⟨S64x64, .f32⟩ : BufTy).Contents (Elt Ideal)) (x3 : (⟨S64, .f32⟩ : BufTy).Contents (Elt Ideal))
      (x4 : (⟨S64x64, .f32⟩ : BufTy).Contents (Elt Ideal)) (i : Fin 100000) (q : Fin 64),
      Cert.ReferenceIdeal.Read.val_main_v31 (F := Ideal) x0 x1 x2 x3 x4 (ix2 i q)
        = Sage.reluRow (Sage.denseRow (fun k => Cert.ReferenceIdeal.Read.val_main_v22 (F := Ideal) x0 x1 (ix2 i k)) (fun k => x0 (ix2 i k))
            (fun q k => x2 (ix2 q k)) (fun q k => x4 (ix2 q k)) (fun q => x3 (ix1 q))) q)
    (hR2 : ∀ (x0 : (⟨S100000x64, .f32⟩ : BufTy).Contents (Elt Ideal)) (x1 : (⟨S2x1600000, .i32⟩ : BufTy).Contents (Elt Ideal))
      (x2 : (⟨S64x64, .f32⟩ : BufTy).Contents (Elt Ideal)) (x3 : (⟨S64, .f32⟩ : BufTy).Contents (Elt Ideal))
      (x4 x5 : (⟨S64x64, .f32⟩ : BufTy).Contents (Elt Ideal)) (x6 : (⟨S64, .f32⟩ : BufTy).Contents (Elt Ideal))
      (x7 : (⟨S64x64, .f32⟩ : BufTy).Contents (Elt Ideal)) (i : Fin 100000) (q : Fin 64),
      Cert.ReferenceIdeal.Read.val_main_v63 (F := Ideal) x0 x1 x2 x3 x4 x5 x6 x7 (ix2 i q)
        = Sage.normRow (Sage.denseRow (fun k => Cert.ReferenceIdeal.Read.val_main_v50 (F := Ideal) x0 x1 x2 x3 x4 (ix2 i k))
            (fun k => Cert.ReferenceIdeal.Read.val_main_v31 (F := Ideal) x0 x1 x2 x3 x4 (ix2 i k))
            (fun q k => x5 (ix2 q k)) (fun q k => x7 (ix2 q k)) (fun q => x6 (ix1 q))) q)
    (c : Dev nD) :
    W4 m ρ c (Proc.devRef .tc main_v41) = Cert.ReferenceIdeal.Read.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (Sage.Run.result_arr m ρ c).trans ((final1 (V3 m ρ) Sage.normRow Sage.Ker.out1_apply c).trans ?_)
  rw [V3_v39 m ρ c, V3_v26 m ρ c, V3_arg5 m ρ c, V3_v40 m ρ c, V3_arg7 m ρ c, h1_eq m ρ hR1 c, src_eq m ρ c, dst_eq m ρ c,
    inv_eq m ρ c, arg5_eq m ρ c, arg6_eq m ρ c, arg7_eq m ρ c, mean2_eq]
  exact layer2_eq _ _ _ _ _ _ _ _ (hR2 _ _ _ _ _ _ _ _)

end Sage.Bridge

end
-- ==== Proof.RefRows.lean ====
/-
  The reference program's two layers, read one output entry at a time.

  Row `i` of a layer's output depends only on row `i` of its two inputs: the aggregated neighbour features `u` and the
  root features `v`. Entry `q` of the row is `(∑ k, u k * wl q k) + b q + (∑ k, v k * wr q k)` — each weight matrix is
  used transposed, so the product with the matrix reads it at `(q, k)`, and the bias is added between the two products.
  That is the sum of the same three terms as `Sage.denseRow`, in another order. The first layer then takes the positive
  part; the second divides the entry by the row's Euclidean length floored at `Sage.eps`, the sum of squares starting
  from the zero word.

  The aggregated features themselves (a gather, a scatter-add and a division by a count) stay named stages here.
-/
import proofs.«165295_j42030549959219_1_alg».proof.Proof.Gen.ReferenceIdeal.Read
import proofs.«165295_j42030549959219_1_alg».proof.Proof.Spec

noncomputable section

open scoped BigOperators

namespace Sage.Ref

open Idealize.ShloMosaic Idealize.ShloMosaic.ValueIdx Cert.ReferenceIdeal Cert.ReferenceIdeal.Read

/-! ## Where each stage reads its operands

A product of a row with a transposed matrix reads the row at `(i, k)` and the matrix at `(q, k)`; a bias broadcast
along the rows reads entry `q`; the row's length, kept as a column, is read at `(i, 0)`. -/

theorem lhs_v24 (i : Fin 100000) (q k : Fin 64) : lidx_main_v24 (ix2 i q) k = ix2 i k :=
  funext fun a => Fin.ext (by match a with | ⟨0, _⟩ => rfl | ⟨1, _⟩ => rfl)
theorem rhs_v24 (i : Fin 100000) (q k : Fin 64) : ridx_main_v24 (ix2 i q) k = ix2 k q :=
  funext fun a => Fin.ext (by match a with | ⟨0, _⟩ => rfl | ⟨1, _⟩ => rfl)
theorem tr_v23 (k q : Fin 64) : idx_main_v23 (ix2 k q) = ix2 q k :=
  funext fun a => Fin.ext (by match a with | ⟨0, _⟩ => rfl | ⟨1, _⟩ => rfl)
theorem bc_v26 (i : Fin 100000) (q : Fin 64) : idx_main_v26 (ix2 i q) = ix2 (0 : Fin 1) q :=
  funext fun a => Fin.ext (by match a with | ⟨0, _⟩ => rfl | ⟨1, _⟩ => rfl)
theorem bc_v25 (z : Fin 1) (q : Fin 64) : idx_main_v25 (ix2 z q) = ix1 q :=
  funext fun a => Fin.ext (by match a with | ⟨0, _⟩ => rfl)
theorem lhs_v29 (i : Fin 100000) (q k : Fin 64) : lidx_main_v29 (ix2 i q) k = ix2 i k :=
  funext fun a => Fin.ext (by match a with | ⟨0, _⟩ => rfl | ⟨1, _⟩ => rfl)
theorem rhs_v29 (i : Fin 100000) (q k : Fin 64) : ridx_main_v29 (ix2 i q) k = ix2 k q :=
  funext fun a => Fin.ext (by match a with | ⟨0, _⟩ => rfl | ⟨1, _⟩ => rfl)
theorem tr_v28 (k q : Fin 64) : idx_main_v28 (ix2 k q) = ix2 q k :=
  funext fun a => Fin.ext (by match a with | ⟨0, _⟩ => rfl | ⟨1, _⟩ => rfl)

theorem lhs_v52 (i : Fin 100000) (q k : Fin 64) : lidx_main_v52 (ix2 i q) k = ix2 i k :=
  funext fun a => Fin.ext (by match a with | ⟨0, _⟩ => rfl | ⟨1, _⟩ => rfl)
theorem rhs_v52 (i : Fin 100000) (q k : Fin 64) : ridx_main_v52 (ix2 i q) k = ix2 k q :=
  funext fun a => Fin.ext (by match a with | ⟨0, _⟩ => rfl | ⟨1, _⟩ => rfl)
theorem tr_v51 (k q : Fin 64) : idx_main_v51 (ix2 k q) = ix2 q k :=
  funext fun a => Fin.ext (by match a with | ⟨0, _⟩ => rfl | ⟨1, _⟩ => rfl)
theorem bc_v54 (i : Fin 100000) (q : Fin 64) : idx_main_v54 (ix2 i q) = ix2 (0 : Fin 1) q :=
  funext fun a => Fin.ext (by match a with | ⟨0, _⟩ => rfl | ⟨1, _⟩ => rfl)
theorem bc_v53 (z : Fin 1) (q : Fin 64) : idx_main_v53 (ix2 z q) = ix1 q :=
  funext fun a => Fin.ext (by match a with | ⟨0, _⟩ => rfl)
theorem lhs_v57 (i : Fin 100000) (q k : Fin 64) : lidx_main_v57 (ix2 i q) k = ix2 i k :=
  funext fun a => Fin.ext (by match a with | ⟨0, _⟩ => rfl | ⟨1, _⟩ => rfl)
theorem rhs_v57 (i : Fin 100000) (q k : Fin 64) : ridx_main_v57 (ix2 i q) k = ix2 k q :=
  funext fun a => Fin.ext (by match a with | ⟨0, _⟩ => rfl | ⟨1, _⟩ => rfl)
theorem tr_v56 (k q : Fin 64) : idx_main_v56 (ix2 k q) = ix2 q k :=
  funext fun a => Fin.ext (by match a with | ⟨0, _⟩ => rfl | ⟨1, _⟩ => rfl)
theorem col_v62 (i : Fin 100000) (q : Fin 64) : idx_main_v62 (ix2 i q) = ix2 i (0 : Fin 1) :=
  funext fun a => Fin.ext (by match a with | ⟨0, _⟩ => rfl | ⟨1, _⟩ => rfl)
theorem col_len (i : Fin 100000) (z : Fin 1) : idx_main_call1_v2 (ix2 i z) = ix1 i :=
  funext fun a => Fin.ext (by match a with | ⟨0, _⟩ => rfl)
theorem row_len (i : Fin 100000) (k : Fin 64) : idx_main_call1_v1 (ix1 i) k = ix2 i k :=
  funext fun a => Fin.ext (by match a with | ⟨0, _⟩ => rfl | ⟨1, _⟩ => rfl)

variable (x0 : (⟨S100000x64, .f32⟩ : BufTy).Contents (Elt Ideal))
  (x1 : (⟨S2x1600000, .i32⟩ : BufTy).Contents (Elt Ideal))
  (x2 : (⟨S64x64, .f32⟩ : BufTy).Contents (Elt Ideal))
  (x3 : (⟨S64, .f32⟩ : BufTy).Contents (Elt Ideal))
  (x4 x5 : (⟨S64x64, .f32⟩ : BufTy).Contents (Elt Ideal))
  (x6 : (⟨S64, .f32⟩ : BufTy).Contents (Elt Ideal))
  (x7 : (⟨S64x64, .f32⟩ : BufTy).Contents (Elt Ideal))

/-! ## The first layer -/

/-- An entry of the first layer's output is the positive part of the layer's entry at the aggregated features and
    the input features of its row. -/
theorem layer1_row (i : Fin 100000) (q : Fin 64) :
    val_main_v31 (F := Ideal) x0 x1 x2 x3 x4 (ix2 i q)
      = Sage.reluRow (Sage.denseRow (fun k => val_main_v22 (F := Ideal) x0 x1 (ix2 i k)) (fun k => x0 (ix2 i k))
          (fun q k => x2 (ix2 q k)) (fun q k => x4 (ix2 q k)) (fun q => x3 (ix1 q))) q := by
  unfold Sage.reluRow
  rw [← Sage.denseRow_bias_first]
  rw [val_main_v31_apply, val_main_v30_apply, val_main_v27_apply, val_main_v24_apply, val_main_v26_apply,
    val_main_v25_apply, val_main_v29_apply, val_main_call0_v0_apply, val_main_call0_cst_apply]
  simp only [val_main_v23_apply, val_main_v28_apply, lhs_v24, rhs_v24, tr_v23, bc_v26, bc_v25, lhs_v29, rhs_v29,
    tr_v28, Ideal.addf_def, Ideal.maximumf_def, Ideal.ofBits_def, Ideal.ofBits_zero_f32]

/-! ## The second layer -/

/-- An entry of the second layer before its division: the layer's entry at the second aggregation and the first
    layer's output of its row. -/
theorem layer2_dense (i : Fin 100000) (q : Fin 64) :
    val_main_v58 (F := Ideal) x0 x1 x2 x3 x4 x5 x6 x7 (ix2 i q)
      = Sage.denseRow (fun k => val_main_v50 (F := Ideal) x0 x1 x2 x3 x4 (ix2 i k))
          (fun k => val_main_v31 (F := Ideal) x0 x1 x2 x3 x4 (ix2 i k))
          (fun q k => x5 (ix2 q k)) (fun q k => x7 (ix2 q k)) (fun q => x6 (ix1 q)) q := by
  rw [← Sage.denseRow_bias_first]
  rw [val_main_v58_apply, val_main_v55_apply, val_main_v52_apply, val_main_v54_apply, val_main_v53_apply,
    val_main_v57_apply]
  simp only [val_main_v51_apply, val_main_v56_apply, lhs_v52, rhs_v52, tr_v51, bc_v54, bc_v53, lhs_v57, rhs_v57,
    tr_v56, Ideal.addf_def]

/-- A square under the row's length: the square of the second layer's entry. -/
theorem layer2_sq (i : Fin 100000) (k : Fin 64) :
    val_main_call1_v0 (F := Ideal) x0 x1 x2 x3 x4 x5 x6 x7 (ix2 i k)
      = Sage.denseRow (fun k => val_main_v50 (F := Ideal) x0 x1 x2 x3 x4 (ix2 i k))
            (fun k => val_main_v31 (F := Ideal) x0 x1 x2 x3 x4 (ix2 i k))
            (fun q k => x5 (ix2 q k)) (fun q k => x7 (ix2 q k)) (fun q => x6 (ix1 q)) k
          * Sage.denseRow (fun k => val_main_v50 (F := Ideal) x0 x1 x2 x3 x4 (ix2 i k))
            (fun k => val_main_v31 (F := Ideal) x0 x1 x2 x3 x4 (ix2 i k))
            (fun q k => x5 (ix2 q k)) (fun q k => x7 (ix2 q k)) (fun q => x6 (ix1 q)) k := by
  rw [val_main_call1_v0_apply, layer2_dense, Ideal.mulf_def]

/-- An entry of the program's result is that row divided by its floored Euclidean length: the length is the root of
    the sum of the row's squares, a sum that starts from the zero word. -/
theorem layer2_row (i : Fin 100000) (q : Fin 64) :
    val_main_v63 (F := Ideal) x0 x1 x2 x3 x4 x5 x6 x7 (ix2 i q)
      = Sage.normRow (Sage.denseRow (fun k => val_main_v50 (F := Ideal) x0 x1 x2 x3 x4 (ix2 i k))
          (fun k => val_main_v31 (F := Ideal) x0 x1 x2 x3 x4 (ix2 i k))
          (fun q k => x5 (ix2 q k)) (fun q k => x7 (ix2 q k)) (fun q => x6 (ix1 q))) q := by
  unfold Sage.normRow Sage.eps
  rw [val_main_v63_apply, val_main_v62_apply, val_main_v61_apply, val_main_v59_apply, val_main_call1_v2_apply,
    val_main_call1_v1_apply, val_main_v60_apply, val_main_cst_10_apply, val_main_call1_cst_apply]
  simp only [col_v62, col_len, row_len, layer2_sq]
  rw [layer2_dense, Ideal.hostDivf_def, Ideal.maximumf_def, Ideal.hostUnary_sqrt_def, Ideal.ofBits_def,
    Ideal.ofBits_def, Ideal.ofBits_zero_f32, zero_add]

end Sage.Ref

end
-- ==== Proof.lean ====
/-
  The certificate of a two-layer graph convolution (mean aggregation, positive part after the first layer, rows
  scaled to unit length after the second) computed by two blocked kernels among host operations, against its plain
  array formulation: over the extended reals both programs end with the same result array.

  Both programs gather the source rows of the edges and scatter-add them at the destinations; that sum, and the count
  of arriving edges floored at one, are the same functions of the same arrays on both sides and are never opened. The
  programs differ in three ways. The kernel multiplies the sum by `1 / max n 1` where the reference divides by
  `max n 1`: equal on all extended reals because `max n 1` is never zero. The kernel adds the bias after both
  products, the reference between them: the sum of three terms in another order. The kernel computes each layer block
  by block, 5000 rows at a time; a layer acts row by row, so the blocks are blocks of one function of the whole
  arrays and tile the output. Changes of number format are the identity over the extended reals, and a matrix product
  into a zero accumulator is the plain sum over the contracted coordinate, as is the host's product. No finiteness of
  the inputs is used.

  The frames are the generated ones (the reference's is its generated run with the result dropped); the idealization
  rewrote no operation, so that conjunct is `True`.
-/
import proofs.«165295_j42030549959219_1_alg».proof.Defs
import proofs.«165295_j42030549959219_1_alg».proof.Proof.Gen.Kernel
import proofs.«165295_j42030549959219_1_alg».proof.Proof.Gen.Kernel.Skeleton
import proofs.«165295_j42030549959219_1_alg».proof.Proof.Gen.Kernel.Launch
import proofs.«165295_j42030549959219_1_alg».proof.Proof.Gen.Kernel.Points
import proofs.«165295_j42030549959219_1_alg».proof.Proof.Gen.Kernel.Frame
import proofs.«165295_j42030549959219_1_alg».proof.Proof.Gen.KernelIdeal
import proofs.«165295_j42030549959219_1_alg».proof.Proof.Gen.KernelIdeal.Skeleton
import proofs.«165295_j42030549959219_1_alg».proof.Proof.Gen.KernelIdeal.Launch
import proofs.«165295_j42030549959219_1_alg».proof.Proof.Gen.KernelIdeal.Points
import proofs.«165295_j42030549959219_1_alg».proof.Proof.Gen.KernelIdeal.Frame
import proofs.«165295_j42030549959219_1_alg».proof.Proof.Gen.ReferenceIdeal
import proofs.«165295_j42030549959219_1_alg».proof.Proof.Gen.ReferenceIdeal.Run
import proofs.«165295_j42030549959219_1_alg».proof.Proof.Gen.ReferenceIdeal.Read
import proofs.«165295_j42030549959219_1_alg».proof.Proof.Gen.Pre_finite_inputs
import proofs.«165295_j42030549959219_1_alg».proof.Proof.Bridge
import proofs.«165295_j42030549959219_1_alg».proof.Proof.RefRows
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs, from memories agreeing on the arguments, end with the result array at the reference's last stage
    of the kernel's arguments: the kernel by the layer-by-layer reading of its run, the reference by its generated run
    with the arguments' agreement rewritten. -/
theorem algebraic : Cert.algebraic_KernelIdeal_ReferenceIdeal := by
  intro m ρ m' ρ' _ hagree
  refine ⟨fun c => Cert.ReferenceIdeal.Read.val_main_v63 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Sage.Bridge.kernel_result m ρ Sage.Ref.layer1_row Sage.Ref.layer2_row c), (h c).2⟩)
      (Sage.Run.run_named m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v63_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
